-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S128x64 : Shape := ⟨2, ![128, 64]⟩
abbrev S1x64 : Shape := ⟨2, ![1, 64]⟩
abbrev S20000x64 : Shape := ⟨2, ![20000, 64]⟩
abbrev S20000x128 : Shape := ⟨2, ![20000, 128]⟩

abbrev nBuf : Space → Nat
  | .hbm => 61
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S_, .f32⟩
  | .hbm, ⟨35, _⟩ => ⟨S100000x64, .f32⟩
  | .hbm, ⟨36, _⟩ => ⟨S1250000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S128x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1250000, .i32⟩
  | .hbm, ⟨45, _⟩ => ⟨S1250000, .i1⟩
  | .hbm, ⟨46, _⟩ => ⟨S_, .i32⟩
  | .hbm, ⟨47, _⟩ => ⟨S1250000, .i32⟩
  | .hbm, ⟨48, _⟩ => ⟨S1250000, .i32⟩
  | .hbm, ⟨49, _⟩ => ⟨S1250000, .i32⟩
  | .hbm, ⟨50, _⟩ => ⟨S1250000x1, .i32⟩
  | .hbm, ⟨51, _⟩ => ⟨S1250000x64, .f32⟩
  | .hbm, ⟨52, _⟩ => ⟨S_, .f32⟩
  | .hbm, ⟨53, _⟩ => ⟨S100000x64, .f32⟩
  | .hbm, ⟨54, _⟩ => ⟨S1250000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S128x64, .f32⟩
  | .hbm, ⟨59, _⟩ => ⟨S1x64, .f32⟩
  | .hbm, ⟨60, _⟩ => ⟨S100000x64, .f32⟩
  | .local _ .vmem, ⟨0, _⟩ => ⟨S20000x64, .f32⟩
  | .local _ .vmem, ⟨1, _⟩ => ⟨S20000x64, .f32⟩
  | .local _ .vmem, ⟨2, _⟩ => ⟨S20000x64, .f32⟩
  | .local _ .vmem, ⟨3, _⟩ => ⟨S20000x64, .f32⟩
  | .local _ .vmem, ⟨4, _⟩ => ⟨S128x64, .f32⟩
  | .local _ .vmem, ⟨5, _⟩ => ⟨S1x64, .f32⟩
  | .local _ .vmem, ⟨6, _⟩ => ⟨S20000x64, .f32⟩
  | .local _ .vmem, ⟨7, _⟩ => ⟨S20000x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S128x64, .f32⟩
  | .local _ .vmem, ⟨13, _⟩ => ⟨S1x64, .f32⟩
  | .local _ .vmem, ⟨14, _⟩ => ⟨S20000x64, .f32⟩
  | .local _ .vmem, ⟨15, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S20000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S20000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S64x64_S64x64_S128x64_d0 : Shape.Concatenates [S64x64, S64x64] S128x64 0
  shapeCasts_S64_S1x64 : S64.ShapeCasts S1x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  concatenates_S20000x64_S20000x64_S20000x128_d1 : Shape.Concatenates [S20000x64, S20000x64] S20000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S20000x128_S128x64_S20000x64_1_0_0_1_n_n_wf : DotDims.WF S20000x128 S128x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S100000x64.size a
  hwx0_1 : ∀ i : grid0.Coords, EltTy.bits .f32 = 32 ∨ (Rect.block (s := S100000x64) S20000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S20000x64.size a ≤ S100000x64.size a
  hwx0_4 : ∀ i : grid0.Coords, EltTy.bits .f32 = 32 ∨ (Rect.block (s := S100000x64) S20000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S100000x64.size a
  hwx1_1 : ∀ i : grid1.Coords, EltTy.bits .f32 = 32 ∨ (Rect.block (s := S100000x64) S20000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S20000x64.size a ≤ S100000x64.size a
  hwx1_4 : ∀ i : grid1.Coords, EltTy.bits .f32 = 32 ∨ (Rect.block (s := S100000x64) S20000x64.size (cc1_transform_4 i) (hinb1_4 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

abbrev win0_0 : Pipeline.Window sig grid0 :=
  Pipeline.Window.ofSpec (Memref.whole main_v24) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S20000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S20000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v39) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S20000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S1x1250000, .i32⟩
  | .hbm, ⟨47, _⟩ => ⟨S1250000, .i32⟩
  | .hbm, ⟨48, _⟩ => ⟨S1x1250000, .i32⟩
  | .hbm, ⟨49, _⟩ => ⟨S1250000, .i32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x64, .f32⟩
  | .hbm, ⟨59, _⟩ => ⟨S_, .f32⟩
  | .hbm, ⟨60, _⟩ => ⟨S100000x64, .f32⟩
  | .hbm, ⟨61, _⟩ => ⟨S1250000x1, .i32⟩
  | .hbm, ⟨62, _⟩ => ⟨S100000x64, .f32⟩
  | .hbm, ⟨63, _⟩ => ⟨S_, .f32⟩
  | .hbm, ⟨64, _⟩ => ⟨S1250000, .f32⟩
  | .hbm, ⟨65, _⟩ => ⟨S_, .f32⟩
  | .hbm, ⟨66, _⟩ => ⟨S100000, .f32⟩
  | .hbm, ⟨67, _⟩ => ⟨S1250000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run, with its RESULT named.

  The program is host operations, a first pipelined call (layer one), host operations, a second pipelined call (layer
  two). Its run passes through five boundaries; at each the buffers' contents are a known function of the launch memory
  (the generated frame's `W0` … `W4`: a stretch of host operations applies them in order, a pipelined call leaves each of
  its arrays at what its write-backs made of it). The generated frame certificate reads, at the last boundary, only the
  argument arrays; here the same run is read at the result array too: it ends holding `W4` at the result's buffer.
-/
import proofs.«173697_j32323923870319_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.SageSpec.lean ====
/-
  The mathematics both programs compute: two layers of a mean-aggregating graph convolution on 100000 nodes
  with 64 features each.

  A layer takes, for every node p, the node's own feature row a(p, ·) and the MEAN row mean(p, ·) of its
  in-neighbours' features, and returns
      out(p, q) = ( Σ_k mean(p, k) · wl(k, q) + b(q) ) + Σ_k a(p, k) · wr(k, q),
  clipped below at 0 after the first layer. The mean is the sum s(p, ·) of the neighbours' rows divided by
  max(deg p, 1), where deg p counts the edges that end at p.
  Everything is on the extended reals; `Ideal.div` is the quotient with its conventions at 0 and ±∞.
  The neighbour sum (a gather of rows followed by a scatter-add) is the same host operation in both programs, so it
  enters here as a parameter `agg`, never opened.
-/
import Idealize.ShloMosaic.PureOps.Ideal
import Idealize.ShloMosaic.Lib.ValueIdx

noncomputable section

open scoped BigOperators

namespace Cert.Sage

open Idealize.ShloMosaic Idealize.ShloMosaic.ValueIdx

/-- Node features: 100000 nodes by 64 features. -/
abbrev Nodes : Shape := ⟨2, ![100000, 64]⟩
/-- A 64 by 64 weight matrix. -/
abbrev Wt : Shape := ⟨2, ![64, 64]⟩
/-- A bias row. -/
abbrev Bias : Shape := ⟨1, ![64]⟩
/-- One number per node. -/
abbrev PerNode : Shape := ⟨1, ![100000]⟩

/-- The mean of the neighbours' rows at node `p`, feature `q`: the neighbour sum over `max (deg p) 1`. -/
def meanAt (s : Nodes.Idx → EReal) (deg : PerNode.Idx → EReal) (p : Fin 100000) (q : Fin 64) : EReal :=
  Ideal.div (s (ix2 p q)) (max (deg (ix1 p)) 1)

/-- The mean as an array. -/
def mean (s : Nodes.Idx → EReal) (deg : PerNode.Idx → EReal) : Nodes.Idx → EReal :=
  fun i => meanAt s deg (i 0) (i 1)

/-- One layer at node `p`, output feature `q`. -/
def layerAt (relu : Bool) (mn a : Nodes.Idx → EReal) (wl wr : Wt.Idx → EReal) (b : Bias.Idx → EReal)
    (p : Fin 100000) (q : Fin 64) : EReal :=
  if relu then
    max (((∑ k : Fin 64, mn (ix2 p k) * wl (ix2 k q)) + b (ix1 q)) + ∑ k : Fin 64, a (ix2 p k) * wr (ix2 k q)) 0
  else
    ((∑ k : Fin 64, mn (ix2 p k) * wl (ix2 k q)) + b (ix1 q)) + ∑ k : Fin 64, a (ix2 p k) * wr (ix2 k q)

/-- One layer as an array. -/
def layer (relu : Bool) (mn a : Nodes.Idx → EReal) (wl wr : Wt.Idx → EReal) (b : Bias.Idx → EReal) : Nodes.Idx → EReal :=
  fun i => layerAt relu mn a wl wr b (i 0) (i 1)

/-- The two layers: the first clipped at 0, the second reading the first's output both as the nodes' own features
    and, through `agg`, as the neighbours'. -/
def out (agg : (Nodes.Idx → EReal) → Nodes.Idx → EReal) (deg : PerNode.Idx → EReal)
    (x : Nodes.Idx → EReal) (wl1 : Wt.Idx → EReal) (b1 : Bias.Idx → EReal) (wr1 : Wt.Idx → EReal)
    (wl2 : Wt.Idx → EReal) (b2 : Bias.Idx → EReal) (wr2 : Wt.Idx → EReal) : Nodes.Idx → EReal :=
  layer false (mean (agg (layer true (mean (agg x) deg) x wl1 wr1 b1)) deg) (layer true (mean (agg x) deg) x wl1 wr1 b1) wl2 wr2 b2

/-! ## The kernel's arrangement of one output element -/

/-- What the kernel computes for one output element: the node's mean row and own row laid side by side (128 numbers)
    against one column of the stacked 128 by 64 matrix (the first 64 rows multiply the mean, the last 64 the node's own
    features), the bias added last, clipped at 0 in the first layer. -/
def stackedAt (relu : Bool) (mn a : Fin 64 → EReal) (w : Fin 128 → EReal) (b : EReal) : EReal :=
  if relu then
    max (((∑ k : Fin 64, mn k * w ⟨k.val, by omega⟩) + ∑ k : Fin 64, a k * w ⟨64 + k.val, by omega⟩) + b) 0
  else
    ((∑ k : Fin 64, mn k * w ⟨k.val, by omega⟩) + ∑ k : Fin 64, a k * w ⟨64 + k.val, by omega⟩) + b

/-! ## The small laws that join the kernel's arrangement to the reference's -/

/-- Multiplying by the reciprocal of `max d 1` is dividing by it, for every extended real `x` and `d`: the divisor
    is at least 1, so it is not 0, and off 0 the quotient IS the product with the inverse. -/
theorem mul_recip_max (x d : EReal) : x * Ideal.div 1 (max d 1) = Ideal.div x (max d 1) := by
  have h : max d 1 ≠ 0 := ne_of_gt (lt_of_lt_of_le zero_lt_one (le_max_right d 1))
  unfold Ideal.div
  rw [if_neg h, if_neg h, one_mul]

/-- A sum over 128 terms is the sum of its first 64 and its last 64. -/
theorem sum_halves (f : Fin 128 → EReal) :
    ∑ k : Fin 128, f k = (∑ k : Fin 64, f ⟨k.val, by omega⟩) + ∑ k : Fin 64, f ⟨64 + k.val, by omega⟩ := by
  have h := Fin.sum_univ_add (a := 64) (b := 64) (fun k : Fin (64 + 64) => f ⟨k.val, by omega⟩)
  exact h

/-- The kernel adds the bias after both products, the reference between them: the same sum. -/
theorem bias_last (u v b : EReal) : (u + v) + b = (u + b) + v := add_right_comm u v b

/-- The kernel's arrangement of an element is the layer's: when the stacked column's first half is `wl`'s column and
    its second half `wr`'s, only the place of the bias differs. -/
theorem stackedAt_eq_layerAt (relu : Bool) (mn a : Nodes.Idx → EReal) (wl wr : Wt.Idx → EReal) (b : Bias.Idx → EReal)
    (w : Fin 128 → EReal) (p : Fin 100000) (q : Fin 64)
    (hl : ∀ k : Fin 64, w ⟨k.val, by omega⟩ = wl (ix2 k q)) (hr : ∀ k : Fin 64, w ⟨64 + k.val, by omega⟩ = wr (ix2 k q)) :
    stackedAt relu (fun k => mn (ix2 p k)) (fun k => a (ix2 p k)) w (b (ix1 q)) = layerAt relu mn a wl wr b p q := by
  unfold stackedAt layerAt
  simp only [hl, hr, bias_last]

end Cert.Sage

end
-- ==== Proof.KernelBlocks.lean ====
/-
  From blocks to arrays: what each of the two pipelined calls leaves in its output array.

  A call walks a grid of five points. At point t it stages rows 20000·t … 20000·t + 19999 of its two row-blocked
  operands (the neighbours' mean rows and the nodes' own rows), the whole stacked 128 by 64 matrix and the whole 1 by 64
  bias row, runs the body on them, and writes the body's 20000 by 64 result back over the same rows of the output.
  The five row blocks tile the 100000 rows, and an output element (r, q) depends only on row r of the row-blocked
  operands, column q of the matrix and entry q of the bias. So the output array, whole, is ONE function of the four
  operand arrays as the call finds them: element (r, q) is the stacked arrangement `Cert.Sage.stackedAt` of row r, row r,
  column q and entry q. The body's arithmetic at an element enters as a hypothesis (`Pay0`, `Pay1`), proved elsewhere.
-/
import proofs.«173697_j32323923870319_2_alg».proof.Proof.Gen.KernelIdeal.Frame
import proofs.«173697_j32323923870319_2_alg».proof.Proof.SageSpec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The first body's arithmetic at an element of its block: the stacked arrangement, clipped at 0. -/
def Pay0 : Prop :=
  ∀ (x0 x1 : Vec Ideal S20000x64 .f32) (x2 : Vec Ideal S128x64 .f32) (x3 : Vec Ideal S1x64 .f32) (p : Fin 20000) (q : Fin 64),
    k0_pay1 (F := Ideal) x0 x1 x2 x3 (ix2 p q)
      = Cert.Sage.stackedAt true (fun k => x0 (ix2 p k)) (fun k => x1 (ix2 p k)) (fun k => x2 (ix2 k q)) (x3 (ix2 (0 : Fin 1) q))

/-- The second body's arithmetic at an element of its block: the stacked arrangement, not clipped. -/
def Pay1 : Prop :=
  ∀ (x0 x1 : Vec Ideal S20000x64 .f32) (x2 : Vec Ideal S128x64 .f32) (x3 : Vec Ideal S1x64 .f32) (p : Fin 20000) (q : Fin 64),
    k1_pay1 (F := Ideal) x0 x1 x2 x3 (ix2 p q)
      = Cert.Sage.stackedAt false (fun k => x0 (ix2 p k)) (fun k => x1 (ix2 p k)) (fun k => x2 (ix2 k q)) (x3 (ix2 (0 : Fin 1) q))

/-- A whole output array in the kernel's arrangement: element (r, q) from row r of the two row-blocked arrays, column q
    of the stacked matrix and entry q of the bias row. -/
def stacked (relu : Bool) (mn a : S100000x64.Idx → EReal) (w : S128x64.Idx → EReal) (b : S1x64.Idx → EReal) :
    S100000x64.Idx → EReal :=
  fun i => Cert.Sage.stackedAt relu (fun k => mn (ix2 (i 0 : Fin 100000) k)) (fun k => a (ix2 (i 0 : Fin 100000) k))
    (fun k => w (ix2 k (i 1 : Fin 64))) (b (ix2 (0 : Fin 1) (i 1 : Fin 64)))

theorem stacked_apply (relu : Bool) (mn a : S100000x64.Idx → EReal) (w : S128x64.Idx → EReal) (b : S1x64.Idx → EReal)
    (r : Fin 100000) (q : Fin 64) :
    stacked relu mn a w b (ix2 r q) = Cert.Sage.stackedAt relu (fun k => mn (ix2 r k)) (fun k => a (ix2 r k))
      (fun k => w (ix2 k q)) (b (ix2 (0 : Fin 1) q)) := rfl

theorem hz : (![0, 0] : Fin 2 → Nat) = fun _ => 0 := funext fun a => by fin_cases a <;> rfl

variable (V : (c : Dev nD) → (b : Ref sig .tc) → Buf (Elt Ideal) ((c : Thread nD τ).loc b))

/-! ## The first call -/

/-- The printed index maps over the grid: the row-blocked windows and the output sit at block row t, the matrix and
    the bias at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the mean block at point t is row 20000·t + p of the mean array. -/
theorem read0_0 (c : Dev nD) (t : Fin cfg0.N) (p : Fin 20000) (k : Fin 64) (r : Fin 100000) (hr : r.val = t.val * 20000 + p.val) :
    (iblk0 V c 0 t : Vec Ideal S20000x64 .f32) (ix2 p k) = (V c main_v24 : S100000x64.Idx → EReal) (ix2 r k) := by
  obtain ⟨e0, e1, -⟩ := idx0 t
  unfold iblk0
  rw [View.read_apply]
  show V c main_v24 _ = V c main_v24 _
  refine congrArg (V c main_v24) ?_
  funext a; apply Fin.ext
  match a with
  | ⟨0, _⟩ => show win0_0.index t (0 : Fin 2) * 20000 + 1 * p.val = r.val; omega
  | ⟨1, _⟩ => show win0_0.index t (1 : Fin 2) * 64 + 1 * k.val = k.val; omega

/-- Row p of the nodes' own block at point t is row 20000·t + p of the node features. -/
theorem read0_1 (c : Dev nD) (t : Fin cfg0.N) (p : Fin 20000) (k : Fin 64) (r : Fin 100000) (hr : r.val = t.val * 20000 + p.val) :
    (iblk0 V c 1 t : Vec Ideal S20000x64 .f32) (ix2 p k) = (V c main_arg0 : S100000x64.Idx → EReal) (ix2 r k) := by
  obtain ⟨-, -, e0, e1, -⟩ := idx0 t
  unfold iblk0
  rw [View.read_apply]
  show V c main_arg0 _ = V c main_arg0 _
  refine congrArg (V c main_arg0) ?_
  funext a; apply Fin.ext
  match a with
  | ⟨0, _⟩ => show win0_1.index t (0 : Fin 2) * 20000 + 1 * p.val = r.val; omega
  | ⟨1, _⟩ => show win0_1.index t (1 : Fin 2) * 64 + 1 * k.val = k.val; omega

/-- The matrix block is the whole matrix. -/
theorem read0_2 (c : Dev nD) (t : Fin cfg0.N) (k : Fin 128) (q : Fin 64) :
    (iblk0 V c 2 t : Vec Ideal S128x64 .f32) (ix2 k q) = (V c main_v25 : S128x64.Idx → EReal) (ix2 k q) := by
  obtain ⟨-, -, -, -, e0, e1, -⟩ := idx0 t
  unfold iblk0
  rw [View.read_apply]
  show V c main_v25 _ = V c main_v25 _
  refine congrArg (V c main_v25) ?_
  funext a; apply Fin.ext
  match a with
  | ⟨0, _⟩ => show win0_2.index t (0 : Fin 2) * 128 + 1 * k.val = k.val; omega
  | ⟨1, _⟩ => show win0_2.index t (1 : Fin 2) * 64 + 1 * q.val = q.val; omega

/-- The bias block is the whole bias row. -/
theorem read0_3 (c : Dev nD) (t : Fin cfg0.N) (q : Fin 64) :
    (iblk0 V c 3 t : Vec Ideal S1x64 .f32) (ix2 (0 : Fin 1) q) = (V c main_v26 : S1x64.Idx → EReal) (ix2 (0 : Fin 1) q) := by
  obtain ⟨-, -, -, -, -, -, e0, e1, -⟩ := idx0 t
  unfold iblk0
  rw [View.read_apply]
  show V c main_v26 _ = V c main_v26 _
  refine congrArg (V c main_v26) ?_
  funext a; apply Fin.ext
  match a with
  | ⟨0, _⟩ => show win0_3.index t (0 : Fin 2) * 1 + 1 * 0 = 0; omega
  | ⟨1, _⟩ => show win0_3.index t (1 : Fin 2) * 64 + 1 * q.val = q.val; omega

/-- What point t writes back is block t of the whole-array function. -/
theorem flushed0 (hpay : Pay0) (c : Dev nD) (t : Fin cfg0.N) :
    (dat0 V c).flushed 4 t = ((cfg0.win 4).blk t).view.read (Elt Ideal)
      (stacked true (V c main_v24) (V c main_arg0) (V c main_v25) (V c main_v26)) := by
  show (cfg0.win 4).cut (grid0.coords t) ((dat0 V c).after 4 t) = _
  rw [after0_4]
  unfold out0_4
  rw [View.canon_unit_zero hz]
  simp only [View.ld_unit_zero (S := S20000x64) hz, View.ld_unit_zero (S := S128x64) hz, View.ld_unit_zero (S := S1x64) hz]
  funext j
  obtain ⟨p, q, rfl⟩ : ∃ (p : Fin 20000) (q : Fin 64), j = ix2 p q := ⟨j 0, j 1, eq_ix2 j⟩
  have ht : t.val < 5 := lt_of_lt_of_eq t.isLt (show cfg0.N = 5 from N_0)
  have hp : p.val < 20000 := p.isLt
  obtain ⟨r, hr⟩ : ∃ r : Fin 100000, r.val = t.val * 20000 + p.val := ⟨⟨t.val * 20000 + p.val, by omega⟩, rfl⟩
  have hemb : ((cfg0.win 4).blk t).view.emb (ix2 p q) = ix2 r q := by
    obtain ⟨-, -, -, -, -, -, -, -, e0, e1⟩ := idx0 t
    funext a; apply Fin.ext
    match a with
    | ⟨0, _⟩ => show win0_4.index t (0 : Fin 2) * 20000 + 1 * p.val = r.val; omega
    | ⟨1, _⟩ => show win0_4.index t (1 : Fin 2) * 64 + 1 * q.val = q.val; omega
  show k0_pay1 (F := Ideal) (iblk0 V c 0 t) (iblk0 V c 1 t) (iblk0 V c 2 t) (iblk0 V c 3 t) (ix2 p q)
    = stacked true (V c main_v24) (V c main_arg0) (V c main_v25) (V c main_v26) (((cfg0.win 4).blk t).view.emb (ix2 p q))
  rw [hemb, stacked_apply]
  refine (hpay (iblk0 V c 0 t) (iblk0 V c 1 t) (iblk0 V c 2 t) (iblk0 V c 3 t) p q).trans ?_
  rw [funext fun k => read0_0 V c t p k r hr, funext fun k => read0_1 V c t p k r hr,
    funext fun k => read0_2 V c t k q, read0_3 V c t q]

/-- Every element of the output is in some point's block: row r in point r / 20000's. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 20000 :=
    ⟨⟨(i 0).val / 20000, by rw [show cfg0.N = 5 from N_0]; omega⟩, rfl⟩
  obtain ⟨-, -, -, -, -, -, -, -, e0, e1⟩ := idx0 t
  refine ⟨t, flush0_4 t, ?_⟩
  show i ∈ ((View.whole main_v27).slice (win0_4.rect t)).set
  rw [View.set_slice_whole, Rect.mem_set_unit]
  intro a
  match a with
  | ⟨0, _⟩ => show win0_4.index t (0 : Fin 2) * 20000 ≤ (i 0).val ∧ (i 0).val < win0_4.index t (0 : Fin 2) * 20000 + 20000; omega
  | ⟨1, _⟩ => show win0_4.index t (1 : Fin 2) * 64 ≤ (i 1).val ∧ (i 1).val < win0_4.index t (1 : Fin 2) * 64 + 64; omega

/-- The first call's output array, whole. -/
theorem final0 (hpay : Pay0) (c : Dev nD) :
    (dat0 V c).arrAt 4 cfg0.N = stacked true (V c main_v24) (V c main_arg0) (V c main_v25) (V c main_v26) :=
  (dat0 V c).arrAt_eq_of_cover 4 _ (fun t _ => flushed0 V hpay c t) cover0

/-! ## The second call -/

/-- The printed index maps over the grid: the row-blocked windows and the output sit at block row t, the matrix and
    the bias at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the mean block at point t is row 20000·t + p of the mean array. -/
theorem read1_0 (c : Dev nD) (t : Fin cfg1.N) (p : Fin 20000) (k : Fin 64) (r : Fin 100000) (hr : r.val = t.val * 20000 + p.val) :
    (iblk1 V c 0 t : Vec Ideal S20000x64 .f32) (ix2 p k) = (V c main_v39 : S100000x64.Idx → EReal) (ix2 r k) := by
  obtain ⟨e0, e1, -⟩ := idx1 t
  unfold iblk1
  rw [View.read_apply]
  show V c main_v39 _ = V c main_v39 _
  refine congrArg (V c main_v39) ?_
  funext a; apply Fin.ext
  match a with
  | ⟨0, _⟩ => show win1_0.index t (0 : Fin 2) * 20000 + 1 * p.val = r.val; omega
  | ⟨1, _⟩ => show win1_0.index t (1 : Fin 2) * 64 + 1 * k.val = k.val; omega

/-- Row p of the nodes' own block at point t is row 20000·t + p of the first layer's output. -/
theorem read1_1 (c : Dev nD) (t : Fin cfg1.N) (p : Fin 20000) (k : Fin 64) (r : Fin 100000) (hr : r.val = t.val * 20000 + p.val) :
    (iblk1 V c 1 t : Vec Ideal S20000x64 .f32) (ix2 p k) = (V c main_v27 : S100000x64.Idx → EReal) (ix2 r k) := by
  obtain ⟨-, -, e0, e1, -⟩ := idx1 t
  unfold iblk1
  rw [View.read_apply]
  show V c main_v27 _ = V c main_v27 _
  refine congrArg (V c main_v27) ?_
  funext a; apply Fin.ext
  match a with
  | ⟨0, _⟩ => show win1_1.index t (0 : Fin 2) * 20000 + 1 * p.val = r.val; omega
  | ⟨1, _⟩ => show win1_1.index t (1 : Fin 2) * 64 + 1 * k.val = k.val; omega

/-- The matrix block is the whole matrix. -/
theorem read1_2 (c : Dev nD) (t : Fin cfg1.N) (k : Fin 128) (q : Fin 64) :
    (iblk1 V c 2 t : Vec Ideal S128x64 .f32) (ix2 k q) = (V c main_v40 : S128x64.Idx → EReal) (ix2 k q) := by
  obtain ⟨-, -, -, -, e0, e1, -⟩ := idx1 t
  unfold iblk1
  rw [View.read_apply]
  show V c main_v40 _ = V c main_v40 _
  refine congrArg (V c main_v40) ?_
  funext a; apply Fin.ext
  match a with
  | ⟨0, _⟩ => show win1_2.index t (0 : Fin 2) * 128 + 1 * k.val = k.val; omega
  | ⟨1, _⟩ => show win1_2.index t (1 : Fin 2) * 64 + 1 * q.val = q.val; omega

/-- The bias block is the whole bias row. -/
theorem read1_3 (c : Dev nD) (t : Fin cfg1.N) (q : Fin 64) :
    (iblk1 V c 3 t : Vec Ideal S1x64 .f32) (ix2 (0 : Fin 1) q) = (V c main_v41 : S1x64.Idx → EReal) (ix2 (0 : Fin 1) q) := by
  obtain ⟨-, -, -, -, -, -, e0, e1, -⟩ := idx1 t
  unfold iblk1
  rw [View.read_apply]
  show V c main_v41 _ = V c main_v41 _
  refine congrArg (V c main_v41) ?_
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- What point t writes back is block t of the whole-array function. -/
theorem flushed1 (hpay : Pay1) (c : Dev nD) (t : Fin cfg1.N) :
    (dat1 V c).flushed 4 t = ((cfg1.win 4).blk t).view.read (Elt Ideal)
      (stacked false (V c main_v39) (V c main_v27) (V c main_v40) (V c main_v41)) := by
  show (cfg1.win 4).cut (grid1.coords t) ((dat1 V c).after 4 t) = _
  rw [after1_4]
  unfold out1_4
  rw [View.canon_unit_zero hz]
  simp only [View.ld_unit_zero (S := S20000x64) hz, View.ld_unit_zero (S := S128x64) hz, View.ld_unit_zero (S := S1x64) hz]
  funext j
  obtain ⟨p, q, rfl⟩ : ∃ (p : Fin 20000) (q : Fin 64), j = ix2 p q := ⟨j 0, j 1, eq_ix2 j⟩
  have ht : t.val < 5 := lt_of_lt_of_eq t.isLt (show cfg1.N = 5 from N_1)
  have hp : p.val < 20000 := p.isLt
  obtain ⟨r, hr⟩ : ∃ r : Fin 100000, r.val = t.val * 20000 + p.val := ⟨⟨t.val * 20000 + p.val, by omega⟩, rfl⟩
  have hemb : ((cfg1.win 4).blk t).view.emb (ix2 p q) = ix2 r q := by
    obtain ⟨-, -, -, -, -, -, -, -, e0, e1⟩ := idx1 t
    funext a; apply Fin.ext
    match a with
    | ⟨0, _⟩ => show win1_4.index t (0 : Fin 2) * 20000 + 1 * p.val = r.val; omega
    | ⟨1, _⟩ => show win1_4.index t (1 : Fin 2) * 64 + 1 * q.val = q.val; omega
  show k1_pay1 (F := Ideal) (iblk1 V c 0 t) (iblk1 V c 1 t) (iblk1 V c 2 t) (iblk1 V c 3 t) (ix2 p q)
    = stacked false (V c main_v39) (V c main_v27) (V c main_v40) (V c main_v41) (((cfg1.win 4).blk t).view.emb (ix2 p q))
  rw [hemb, stacked_apply]
  refine (hpay (iblk1 V c 0 t) (iblk1 V c 1 t) (iblk1 V c 2 t) (iblk1 V c 3 t) p q).trans ?_
  rw [funext fun k => read1_0 V c t p k r hr, funext fun k => read1_1 V c t p k r hr,
    funext fun k => read1_2 V c t k q, read1_3 V c t q]

/-- Every element of the output is in some point's block: row r in point r / 20000's. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 20000 :=
    ⟨⟨(i 0).val / 20000, by rw [show cfg1.N = 5 from N_1]; omega⟩, rfl⟩
  obtain ⟨-, -, -, -, -, -, -, -, e0, e1⟩ := idx1 t
  refine ⟨t, flush1_4 t, ?_⟩
  show i ∈ ((View.whole main_v42).slice (win1_4.rect t)).set
  rw [View.set_slice_whole, Rect.mem_set_unit]
  intro a
  match a with
  | ⟨0, _⟩ => show win1_4.index t (0 : Fin 2) * 20000 ≤ (i 0).val ∧ (i 0).val < win1_4.index t (0 : Fin 2) * 20000 + 20000; omega
  | ⟨1, _⟩ => show win1_4.index t (1 : Fin 2) * 64 ≤ (i 1).val ∧ (i 1).val < win1_4.index t (1 : Fin 2) * 64 + 64; omega

/-- The second call's output array, whole. -/
theorem final1 (hpay : Pay1) (c : Dev nD) :
    (dat1 V c).arrAt 4 cfg1.N = stacked false (V c main_v39) (V c main_v27) (V c main_v40) (V c main_v41) :=
  (dat1 V c).arrAt_eq_of_cover 4 _ (fun t _ => flushed1 V hpay c t) cover1

end Cert.KernelIdeal.Blocks

end
-- ==== Proof.KernelHost.lean ====
/-
  The host operations around the two pipelined calls, read back.

  Before the first call the host computes, from the edge list `e` (row 0 the sources, row 1 the destinations) and the
  node features `x`: the in-degree of every node (a scatter-add of ones at the destinations), the reciprocal of
  `max(degree, 1)` as a column, the sum of every node's in-neighbours' rows (gather the source rows, scatter-add them at
  the destinations), and their product — the mean rows —; it stacks the two weight matrices and turns the bias into a
  row. Between the calls it does the same with the first call's output `h` in place of `x`, reusing the sources,
  destinations and reciprocal column computed before. This module names those terms and reads each call's operand
  arrays as them.
-/
import proofs.«173697_j32323923870319_2_alg».proof.Proof.Gen.KernelIdeal.Frame
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

/-- The edges' sources: row 0 of the edge list. -/
def src (e : (⟨S2x1250000, .i32⟩ : BufTy).Contents (Elt F)) : (⟨S1250000, .i32⟩ : BufTy).Contents (Elt F) :=
  fun i => shapeCast main_v1.ty.shape (extractStridedSlice S1x1250000 ![0, 0] e slices_S2x1250000_S1x1250000_0_0) shapeCasts_S1x1250000_S1250000 i

/-- The edges' destinations: row 1 of the edge list. -/
def dst (e : (⟨S2x1250000, .i32⟩ : BufTy).Contents (Elt F)) : (⟨S1250000, .i32⟩ : BufTy).Contents (Elt F) :=
  fun i => shapeCast main_v3.ty.shape (extractStridedSlice S1x1250000 ![1, 0] e slices_S2x1250000_S1x1250000_1_0) shapeCasts_S1x1250000_S1250000 i

/-- The sum of every node's in-neighbours' rows of `a`: the rows at the sources (a negative source index counted from
    the end), added up at the destinations. -/
def nbrSum (sv dv : (⟨S1250000, .i32⟩ : BufTy).Contents (Elt F)) (a : (⟨S100000x64, .f32⟩ : BufTy).Contents (Elt F)) :
    (⟨S100000x64, .f32⟩ : BufTy).Contents (Elt F) :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 dv)
    (Host.gather gather_S100000x64_S1250000x1_S1250000x64_1_0_n_n_0_1_164 a
      (broadcastInDim S1250000x1 ![0] bcast_S1250000_S1250000x1_0
        (select (cmpi .slt sv (broadcastInDim S1250000 ![] bcast_S_S1250000 (constantI S_ 32 0#32)))
          (addi sv (broadcastInDim S1250000 ![] bcast_S_S1250000 (constantI S_ 32 100000#32))) sv)))

/-- Every node's in-degree: ones added up at the destinations. -/
def degree (dv : (⟨S1250000, .i32⟩ : BufTy).Contents (Elt F)) : (⟨S100000, .f32⟩ : BufTy).Contents (Elt F) :=
  Host.scatterAdd scatter_S100000_S1250000x1_S1250000_n_0_0_1
    (broadcastInDim S100000 ![] bcast_S_S100000 (constant S_ .f32 0x00000000#32))
    (broadcastInDim S1250000x1 ![0] bcast_S1250000_S1250000x1_0 dv)
    (broadcastInDim S1250000 ![] bcast_S_S1250000 (constant S_ .f32 0x3F800000#32))

/-- The reciprocal of `max(degree, 1)`, as a column. -/
def recipCol (dv : (⟨S1250000, .i32⟩ : BufTy).Contents (Elt F)) : (⟨S100000x1, .f32⟩ : BufTy).Contents (Elt F) :=
  fun i => shapeCast main_v12.ty.shape
    (Host.divf (broadcastInDim S100000 ![] bcast_S_S100000 (constant S_ .f32 0x3F800000#32))
      (maximumf (degree dv) (broadcastInDim S100000 ![] bcast_S_S100000 (constant S_ .f32 0x3F800000#32))))
    shapeCasts_S100000_S100000x1 i

/-- The mean rows as the kernel's host side forms them: the neighbour sum times the reciprocal column, broadcast along
    the features. -/
def meanRows (sv dv : (⟨S1250000, .i32⟩ : BufTy).Contents (Elt F)) (rc : (⟨S100000x1, .f32⟩ : BufTy).Contents (Elt F))
    (a : (⟨S100000x64, .f32⟩ : BufTy).Contents (Elt F)) : (⟨S100000x64, .f32⟩ : BufTy).Contents (Elt F) :=
  mulf (nbrSum sv dv a) (broadcastInDim S100000x64 ![0, 1] bcast_S100000x1_S100000x64_0_1 rc)

/-- The two weight matrices stacked: `wl` above `wr`. -/
def stackW (wl wr : (⟨S64x64, .f32⟩ : BufTy).Contents (Elt F)) : (⟨S128x64, .f32⟩ : BufTy).Contents (Elt F) :=
  concatenate S128x64 0 [⟨S64x64, wl⟩, ⟨S64x64, wr⟩] concatenates_S64x64_S64x64_S128x64_d0

/-- The bias as a 1 by 64 row. -/
def biasRow (b : (⟨S64, .f32⟩ : BufTy).Contents (Elt F)) : (⟨S1x64, .f32⟩ : BufTy).Contents (Elt F) :=
  fun i => shapeCast main_v26.ty.shape b shapeCasts_S64_S1x64 i

variable (m : (ℓ : Loc nD τ sig) → Buf (Elt F) ℓ) (ρ : Dev nD → PrngReg)

/-! ## The first call's operands -/

theorem V1_v24 (c : Dev nD) : V1 m ρ c main_v24
    = meanRows (src (m ((c : Thread nD τ).loc main_arg1))) (dst (m ((c : Thread nD τ).loc main_arg1)))
        (recipCol (dst (m ((c : Thread nD τ).loc main_arg1)))) (m ((c : Thread nD τ).loc main_arg0)) := by
  dsimp only [V1, W1, hostOps0]
  after_results_simp <;> rfl

theorem V1_arg0 (c : Dev nD) : V1 m ρ c main_arg0 = m ((c : Thread nD τ).loc main_arg0) := by
  dsimp only [V1, W1, hostOps0]
  after_results_simp <;> rfl

theorem V1_v25 (c : Dev nD) : V1 m ρ c main_v25
    = stackW (m ((c : Thread nD τ).loc main_arg2)) (m ((c : Thread nD τ).loc main_arg4)) := by
  dsimp only [V1, W1, hostOps0]
  after_results_simp <;> rfl

theorem V1_v26 (c : Dev nD) : V1 m ρ c main_v26 = biasRow (m ((c : Thread nD τ).loc main_arg3)) := by
  dsimp only [V1, W1, hostOps0]
  after_results_simp <;> rfl

/-! ## What the first call leaves untouched -/

theorem W2_v1 (c : Dev nD) : W2 m ρ c (Proc.devRef .tc main_v1) = src (m ((c : Thread nD τ).loc main_arg1)) :=
  (W2_of_ne m ρ c main_v1 (by decide)).trans (by
    dsimp only [W1, hostOps0]
    after_results_simp <;> rfl)

theorem W2_v3 (c : Dev nD) : W2 m ρ c (Proc.devRef .tc main_v3) = dst (m ((c : Thread nD τ).loc main_arg1)) :=
  (W2_of_ne m ρ c main_v3 (by decide)).trans (by
    dsimp only [W1, hostOps0]
    after_results_simp <;> rfl)

theorem W2_v12 (c : Dev nD) : W2 m ρ c (Proc.devRef .tc main_v12) = recipCol (dst (m ((c : Thread nD τ).loc main_arg1))) :=
  (W2_of_ne m ρ c main_v12 (by decide)).trans (by
    dsimp only [W1, hostOps0]
    after_results_simp <;> rfl)

theorem W2_arg5 (c : Dev nD) : W2 m ρ c (Proc.devRef .tc main_arg5) = m ((c : Thread nD τ).loc main_arg5) :=
  (W2_of_ne m ρ c main_arg5 (by decide)).trans (by
    dsimp only [W1, hostOps0]
    after_results_simp <;> rfl)

theorem W2_arg6 (c : Dev nD) : W2 m ρ c (Proc.devRef .tc main_arg6) = m ((c : Thread nD τ).loc main_arg6) :=
  (W2_of_ne m ρ c main_arg6 (by decide)).trans (by
    dsimp only [W1, hostOps0]
    after_results_simp <;> rfl)

theorem W2_arg7 (c : Dev nD) : W2 m ρ c (Proc.devRef .tc main_arg7) = m ((c : Thread nD τ).loc main_arg7) :=
  (W2_of_ne m ρ c main_arg7 (by decide)).trans (by
    dsimp only [W1, hostOps0]
    after_results_simp <;> rfl)

/-! ## The second call's operands -/

theorem V3_v39 (c : Dev nD) : V3 m ρ c main_v39
    = meanRows (src (m ((c : Thread nD τ).loc main_arg1))) (dst (m ((c : Thread nD τ).loc main_arg1)))
        (recipCol (dst (m ((c : Thread nD τ).loc main_arg1)))) (W2 m ρ c (Proc.devRef .tc main_v27)) := by
  rw [← W2_v12 m ρ c, ← W2_v1 m ρ c, ← W2_v3 m ρ c]
  dsimp only [V3, W3, hostOps1]
  after_results_simp <;> rfl

theorem V3_v27 (c : Dev nD) : V3 m ρ c main_v27 = W2 m ρ c (Proc.devRef .tc main_v27) := by
  dsimp only [V3, W3, hostOps1]
  after_results_simp <;> rfl

theorem V3_v40 (c : Dev nD) : V3 m ρ c main_v40
    = stackW (m ((c : Thread nD τ).loc main_arg5)) (m ((c : Thread nD τ).loc main_arg7)) := by
  rw [← W2_arg5 m ρ c, ← W2_arg7 m ρ c]
  dsimp only [V3, W3, hostOps1]
  after_results_simp <;> rfl

theorem V3_v41 (c : Dev nD) : V3 m ρ c main_v41 = biasRow (m ((c : Thread nD τ).loc main_arg6)) := by
  rw [← W2_arg6 m ρ c]
  dsimp only [V3, W3, hostOps1]
  after_results_simp <;> rfl

end Cert.KernelIdeal.HostRead

end
-- ==== Proof.KernelLayer.lean ====
/-
  One pipelined call, read whole: its output array is one layer of the specification.

  The call's four operand arrays are: the mean rows (the neighbour sum times the reciprocal column), the nodes' own
  rows, the two weight matrices stacked, and the bias as a row. Reading the stacked matrix's first 64 rows as the first
  matrix and its last 64 as the second, and the bias row's entries as the bias's, the kernel's arrangement of an output
  element is the specification's up to the place of the bias in the sum. And the mean rows as the host forms them —
  the sum times 1 / max(degree, 1) — are the specification's quotient by max(degree, 1): the divisor is never 0.
-/
import proofs.«173697_j32323923870319_2_alg».proof.Proof.KernelBlocks
import proofs.«173697_j32323923870319_2_alg».proof.Proof.KernelHost
import proofs.«173697_j32323923870319_2_alg».proof.Proof.SageSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Layer

open Cert.KernelIdeal Cert.KernelIdeal.Gen Idealize.ShloMosaic Idealize.ShloMosaic.ValueIdx
open Cert.KernelIdeal.HostRead Cert.KernelIdeal.Blocks

/-- Row k of the stacked matrix, k below 64, is row k of the first matrix. -/
theorem stackW_first (wl wr : S64x64.Idx → EReal) (k q : Fin 64) :
    stackW (F := Ideal) wl wr (ix2 (⟨k.val, by omega⟩ : Fin 128) q) = wl (ix2 k q) := by
  unfold stackW
  exact concatenate_pair_apply_left (0 : Fin 2) wl wr concatenates_S64x64_S64x64_S128x64_d0
    (ix2 (⟨k.val, by omega⟩ : Fin 128) q) rfl (ix2 k q) (fun b => match b with | ⟨0, _⟩ => rfl | ⟨1, _⟩ => rfl)

/-- Row 64 + k of the stacked matrix is row k of the second matrix. -/
theorem stackW_second (wl wr : S64x64.Idx → EReal) (k q : Fin 64) :
    stackW (F := Ideal) wl wr (ix2 (⟨64 + k.val, by omega⟩ : Fin 128) q) = wr (ix2 k q) := by
  unfold stackW
  exact concatenate_pair_apply_right (0 : Fin 2) wl wr concatenates_S64x64_S64x64_S128x64_d0
    (ix2 (⟨64 + k.val, by omega⟩ : Fin 128) q) rfl rfl (ix2 k q)
    (fun b hb => match b, hb with | ⟨0, _⟩, hb => absurd rfl hb | ⟨1, _⟩, _ => rfl)
    (by show k.val + 64 = 64 + k.val; omega)

/-- Entry q of the bias row is entry q of the bias. -/
theorem biasRow_apply (b : S64.Idx → EReal) (q : Fin 64) : biasRow (F := Ideal) b (ix2 (0 : Fin 1) q) = b (ix1 q) := by
  unfold biasRow
  exact shapeCast_a_1a_apply b shapeCasts_S64_S1x64 (0 : Fin 1) q

/-- The kernel's whole-array arrangement over the stacked matrix and the bias row is the specification's layer. -/
theorem stacked_eq_layer (relu : Bool) (mn a : S100000x64.Idx → EReal) (wl wr : S64x64.Idx → EReal) (b : S64.Idx → EReal) :
    stacked relu mn a (stackW (F := Ideal) wl wr) (biasRow (F := Ideal) b) = Cert.Sage.layer relu mn a wl wr b := by
  funext i
  obtain ⟨r, q, rfl⟩ : ∃ (r : Fin 100000) (q : Fin 64), i = ix2 r q := ⟨i 0, i 1, eq_ix2 i⟩
  rw [stacked_apply, biasRow_apply]
  exact Cert.Sage.stackedAt_eq_layerAt relu mn a wl wr b (fun k => stackW (F := Ideal) wl wr (ix2 k q)) r q
    (fun k => stackW_first wl wr k q) (fun k => stackW_second wl wr k q)

/-- A vector cast to a column reads, at (i, 0), the vector at i. -/
theorem shapeCast_column_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The reciprocal column of any per-node array `d`, at node r: 1 over max(d r, 1). -/
theorem recip_at (d : S100000.Idx → EReal) (r : Fin 100000) :
    shapeCast (⟨2, ![100000, 1]⟩ : Shape)
      (Host.divf (F := Ideal) (broadcastInDim S100000 ![] bcast_S_S100000 (constant (F := Ideal) S_ .f32 0x3F800000#32))
        (maximumf (F := Ideal) d (broadcastInDim S100000 ![] bcast_S_S100000 (constant (F := Ideal) S_ .f32 0x3F800000#32))))
      shapeCasts_S100000_S100000x1 (ix2 r (0 : Fin 1)) = Ideal.div 1 (max (d (ix1 r)) 1) := by
  refine (shapeCast_column_apply _ shapeCasts_S100000_S100000x1 r (0 : Fin 1)).trans ?_
  show Ideal.div (Ideal.ofBits .f32 0x3F800000#32) (max (d (ix1 r)) (Ideal.ofBits .f32 0x3F800000#32)) = _
  rw [Ideal.ofBits_one_f32]

/-- A per-node column broadcast along the features reads, at (r, q), the column at (r, 0). -/
theorem column_bcast_at (col : S100000x1.Idx → EReal) (r : Fin 100000) (q : Fin 64) :
    broadcastInDim S100000x64 ![0, 1] bcast_S100000x1_S100000x64_0_1 col (ix2 r q) = col (ix2 r (0 : Fin 1)) :=
  broadcastInDim_apply ![0, 1] bcast_S100000x1_S100000x64_0_1 col (ix2 r q) (ix2 r (0 : Fin 1)) (fun ax => match ax with
    | ⟨0, _⟩ => by show r.val = if (100000 : Nat) = 1 then 0 else r.val; rw [if_neg (by decide)]
    | ⟨1, _⟩ => by show 0 = if (1 : Nat) = 1 then 0 else q.val; rw [if_pos rfl])

/-- Any array `s` times the broadcast reciprocal column of any per-node array `d` is the specification's mean of `s`
    over `d`: at (r, q), s(r, q) · (1 / max(d r, 1)) = s(r, q) / max(d r, 1). -/
theorem mul_recip_eq_mean (s : S100000x64.Idx → EReal) (d : S100000.Idx → EReal) :
    mulf (F := Ideal) s (broadcastInDim S100000x64 ![0, 1] bcast_S100000x1_S100000x64_0_1 (fun i =>
      shapeCast main_v12.ty.shape
        (Host.divf (F := Ideal) (broadcastInDim S100000 ![] bcast_S_S100000 (constant (F := Ideal) S_ .f32 0x3F800000#32))
          (maximumf (F := Ideal) d (broadcastInDim S100000 ![] bcast_S_S100000 (constant (F := Ideal) S_ .f32 0x3F800000#32))))
        shapeCasts_S100000_S100000x1 i))
      = Cert.Sage.mean s d := by
  funext i
  obtain ⟨r, q, rfl⟩ : ∃ (r : Fin 100000) (q : Fin 64), i = ix2 r q := ⟨i 0, i 1, eq_ix2 i⟩
  refine (mulf_apply _ _ _).trans ?_
  rw [column_bcast_at]
  show s (ix2 r q) * shapeCast (⟨2, ![100000, 1]⟩ : Shape) _ shapeCasts_S100000_S100000x1 (ix2 r (0 : Fin 1))
    = Cert.Sage.meanAt s d r q
  rw [recip_at]
  exact Cert.Sage.mul_recip_max _ _

/-- The mean rows as the host forms them are the specification's mean of the neighbour sum. -/
theorem meanRows_eq_mean (sv dv : (⟨S1250000, .i32⟩ : BufTy).Contents (Elt Ideal)) (a : S100000x64.Idx → EReal) :
    meanRows (F := Ideal) sv dv (recipCol dv) a = Cert.Sage.mean (nbrSum (F := Ideal) sv dv a) (degree (F := Ideal) dv) := by
  unfold meanRows recipCol
  exact mul_recip_eq_mean (nbrSum (F := Ideal) sv dv a) (degree (F := Ideal) dv)

end Cert.KernelIdeal.Layer

end
-- ==== Proof.KernelPayload.lean ====
/-
  The kernel body's arithmetic at one output element.

  A body holds a block of 20000 mean rows and the block of the same nodes' own rows (64 numbers each), the stacked
  128 by 64 weight and the bias row. It lays the two blocks side by side (20000 rows of 128 numbers), multiplies by the
  weight into a zero accumulator, adds the bias row to every row and, in the first layer, clips at 0. Read at row p,
  column q this is
      ( Σ_{k<64} mean(p,k) · w(k,q) + Σ_{k<64} own(p,k) · w(64+k,q) ) + b(q),
  clipped at 0 in the first layer: the sum over the 128 contraction positions splits into its first and last 64, and
  the side-by-side row is the mean row on the first 64 positions and the own row on the last 64.
-/
import proofs.«173697_j32323923870319_2_alg».proof.Proof.Gen.KernelIdeal.Skeleton
import proofs.«173697_j32323923870319_2_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

open scoped BigOperators

namespace Cert.KernelIdeal.Payload

open Cert.KernelIdeal Cert.KernelIdeal.Gen Idealize.ShloMosaic Idealize.ShloMosaic.ValueIdx

/-- The product's dimension numbers: the left operand's axis 1 against the right operand's axis 0. -/
abbrev D : DotDims S20000x128 S128x64 S20000x64 := dot_S20000x128_S128x64_S20000x64_1_0_0_1_n_n

/-! ## The product's operand indices, coordinate by coordinate -/

/-- The left operand's row is the output's row. -/
theorem lhs_0 (i : S20000x64.Idx) (c : D.contr.Idx) : (D.lhsIdx i c 0).val = (i 0).val := by
  unfold DotDims.lhsIdx
  rw [dif_neg (show ¬(0 : Fin S20000x128.rank) ∈ D.lhsBatch by decide), dif_pos (show (0 : Fin S20000x128.rank) ∈ D.lhsNonContracting by decide)]
  rfl

/-- The left operand's column is the contraction position. -/
theorem lhs_1 (i : S20000x64.Idx) (c : D.contr.Idx) : (D.lhsIdx i c 1).val = (c ⟨0, by decide⟩).val :=
  D.lhsIdx_val_of_single rfl i c

/-- The right operand's row is the contraction position. -/
theorem rhs_0 (i : S20000x64.Idx) (c : D.contr.Idx) : (D.rhsIdx i c 0).val = (c ⟨0, by decide⟩).val :=
  D.rhsIdx_val_of_single rfl i c

/-- The right operand's column is the output's column. -/
theorem rhs_1 (i : S20000x64.Idx) (c : D.contr.Idx) : (D.rhsIdx i c 1).val = (i 1).val := by
  unfold DotDims.rhsIdx
  rw [dif_neg (show ¬(1 : Fin S128x64.rank) ∈ D.rhsBatch by decide), dif_pos (show (1 : Fin S128x64.rank) ∈ D.rhsNonContracting by decide)]
  rfl

/-! ## The product into a zero accumulator, at an index -/

/-- A 20000 by 128 array times a 128 by 64 array, accumulated into zero, at row p and column q: the sum over the 128
    positions of the row's entry times the column's. -/
theorem matmul_at (l : FVec Ideal S20000x128 .f32) (r : FVec Ideal S128x64 .f32) (p : Fin 20000) (q : Fin 64) :
    matmul (F := Ideal) D (some .fp32) l r (constant (F := Ideal) S20000x64 .f32 0x00000000#32) (ix2 p q)
      = ∑ k : Fin 128, l (ix2 p k) * r (ix2 k q) := by
  refine (Ideal.matmul_constant_zero_apply D (some .fp32) l r (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [el, er]

/-! ## Two blocks side by side, at an index -/

/-- On the first 64 columns the side-by-side array is the first block. -/
theorem cat_left (u v : FVec Ideal S20000x64 .f32) (p : Fin 20000) (k : Fin 64) :
    concatenate S20000x128 1 [⟨S20000x64, u⟩, ⟨S20000x64, v⟩] concatenates_S20000x64_S20000x64_S20000x128_d1
        (ix2 p (⟨k.val, by omega⟩ : Fin 128)) = u (ix2 p k) :=
  concatenate_pair_apply_left (1 : Fin 2) u v concatenates_S20000x64_S20000x64_S20000x128_d1
    (ix2 p (⟨k.val, by omega⟩ : Fin 128)) rfl (ix2 p k) (fun b => match b with
      | ⟨0, _⟩ => rfl
      | ⟨1, _⟩ => rfl)

/-- On the last 64 columns it is the second block, 64 columns to the left. -/
theorem cat_right (u v : FVec Ideal S20000x64 .f32) (p : Fin 20000) (k : Fin 64) :
    concatenate S20000x128 1 [⟨S20000x64, u⟩, ⟨S20000x64, v⟩] concatenates_S20000x64_S20000x64_S20000x128_d1
        (ix2 p (⟨64 + k.val, by omega⟩ : Fin 128)) = v (ix2 p k) :=
  concatenate_pair_apply_right (1 : Fin 2) u v concatenates_S20000x64_S20000x64_S20000x128_d1
    (ix2 p (⟨64 + k.val, by omega⟩ : Fin 128)) rfl rfl (ix2 p k) (fun b hb => match b, hb with
      | ⟨0, _⟩, _ => rfl
      | ⟨1, _⟩, hb => absurd rfl hb)
    (by show k.val + 64 = 64 + k.val; omega)

/-- A row of the side-by-side array against a column of the weight: the first block's row against the column's first
    64 entries plus the second block's row against its last 64. -/
theorem cat_matmul_at (u v : FVec Ideal S20000x64 .f32) (w : FVec Ideal S128x64 .f32) (p : Fin 20000) (q : Fin 64) :
    matmul (F := Ideal) D (some .fp32)
        (concatenate S20000x128 1 [⟨S20000x64, u⟩, ⟨S20000x64, v⟩] concatenates_S20000x64_S20000x64_S20000x128_d1)
        w (constant (F := Ideal) S20000x64 .f32 0x00000000#32) (ix2 p q)
      = (∑ k : Fin 64, u (ix2 p k) * w (ix2 (⟨k.val, by omega⟩ : Fin 128) q))
        + ∑ k : Fin 64, v (ix2 p k) * w (ix2 (⟨64 + k.val, by omega⟩ : Fin 128) q) := by
  rw [matmul_at, Cert.Sage.sum_halves]
  simp only [cat_left, cat_right]

/-! ## The bias row under every row -/

/-- The bias row broadcast over the 20000 rows reads, at row p and column q, the row's entry q. -/
theorem bias_at (b : FVec Ideal S1x64 .f32) (p : Fin 20000) (q : Fin 64) :
    broadcastTo S20000x64 b broadcasts_S1x64_S20000x64 (ix2 p q) = b (ix2 (0 : Fin 1) q) :=
  broadcastTo_1b_ab_apply b broadcasts_S1x64_S20000x64 p q

/-! ## The two bodies -/

/-- The first layer's body at row p, column q. -/
theorem pay0_at (x0 x1 : Vec Ideal S20000x64 .f32) (x2 : Vec Ideal S128x64 .f32) (x3 : Vec Ideal S1x64 .f32) (p : Fin 20000) (q : Fin 64) :
    k0_pay1 (F := Ideal) x0 x1 x2 x3 (ix2 p q)
      = Cert.Sage.stackedAt true (fun k => x0 (ix2 p k)) (fun k => x1 (ix2 p k)) (fun k => x2 (ix2 k q)) (x3 (ix2 (0 : Fin 1) q)) := by
  unfold k0_pay1
  simp only [shapeCast_self, maximumf_apply, addf_apply, broadcast_apply, cat_matmul_at, bias_at]
  unfold Cert.Sage.stackedAt
  rw [if_pos rfl]
  show max _ (Ideal.ofBits .f32 0x00000000#32) = max _ 0
  rw [Ideal.ofBits_zero_f32]

/-- The second layer's body at row p, column q. -/
theorem pay1_at (x0 x1 : Vec Ideal S20000x64 .f32) (x2 : Vec Ideal S128x64 .f32) (x3 : Vec Ideal S1x64 .f32) (p : Fin 20000) (q : Fin 64) :
    k1_pay1 (F := Ideal) x0 x1 x2 x3 (ix2 p q)
      = Cert.Sage.stackedAt false (fun k => x0 (ix2 p k)) (fun k => x1 (ix2 p k)) (fun k => x2 (ix2 k q)) (x3 (ix2 (0 : Fin 1) q)) := by
  unfold k1_pay1
  simp only [shapeCast_self, addf_apply, cat_matmul_at, bias_at]
  unfold Cert.Sage.stackedAt
  rw [if_neg (by decide)]

end Cert.KernelIdeal.Payload

end
-- ==== Proof.KernelValue.lean ====
/-
  The idealized kernel program's result, whole: the specification's two layers of the launch arrays.

  The run ends with the result array at what the second pipelined call's write-backs leave. That is one layer (not
  clipped) of the second call's operands as it finds them; those are the host's mean rows of the first call's output,
  that output itself, and the second pair of weights and bias. The first call's output in turn is one layer (clipped at
  0) of the host's mean rows of the node features, the features, and the first weights and bias. With the host's mean
  rows read as the specification's mean, the result is `Cert.Sage.out` of the launch arrays.
-/
import proofs.«173697_j32323923870319_2_alg».proof.Proof.KernelRun
import proofs.«173697_j32323923870319_2_alg».proof.Proof.KernelLayer
import proofs.«173697_j32323923870319_2_alg».proof.Proof.KernelPayload

set_option maxRecDepth 16384

noncomputable section

namespace Cert.KernelIdeal.Final

open Cert.KernelIdeal Cert.KernelIdeal.Gen Idealize.ShloMosaic Idealize.ShloMosaic.TcCoe Idealize.SL.Sem
open Cert.KernelIdeal.HostRead

/-- The neighbour sum of `a` over the edge list `e`, as the kernel program's host side spells it. -/
abbrev agg (e : (⟨S2x1250000, .i32⟩ : BufTy).Contents (Elt Ideal)) (a : S100000x64.Idx → EReal) : S100000x64.Idx → EReal :=
  nbrSum (F := Ideal) (src e) (dst e) a

/-- The in-degrees over the edge list `e`. -/
abbrev deg (e : (⟨S2x1250000, .i32⟩ : BufTy).Contents (Elt Ideal)) : S100000.Idx → EReal :=
  degree (F := Ideal) (dst e)

variable (m : (ℓ : Loc nD τ sig) → Buf (Elt Ideal) ℓ) (ρ : Dev nD → PrngReg)

/-- The first call's output array: the clipped first layer of the launch arrays. -/
theorem first_layer (c : Dev nD) : W2 m ρ c (Proc.devRef .tc main_v27)
    = Cert.Sage.layer true
        (Cert.Sage.mean (agg (m ((c : Thread nD τ).loc main_arg1)) (m ((c : Thread nD τ).loc main_arg0))) (deg (m ((c : Thread nD τ).loc main_arg1))))
        (m ((c : Thread nD τ).loc main_arg0)) (m ((c : Thread nD τ).loc main_arg2)) (m ((c : Thread nD τ).loc main_arg4))
        (m ((c : Thread nD τ).loc main_arg3)) := by
  refine (W2_arr m ρ c 4).trans ?_
  rw [Blocks.final0 (V1 m ρ) Payload.pay0_at c, V1_v24 m ρ c, V1_arg0 m ρ c, V1_v25 m ρ c, V1_v26 m ρ c,
    Layer.meanRows_eq_mean, Layer.stacked_eq_layer]

/-- The result array at the end of the run: the specification's two layers of the launch arrays. -/
theorem result (c : Dev nD) : W4 m ρ c (Proc.devRef .tc main_v42)
    = Cert.Sage.out (agg (m ((c : Thread nD τ).loc main_arg1))) (deg (m ((c : Thread nD τ).loc main_arg1)))
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  refine (W4_arr m ρ c 4).trans ?_
  rw [Blocks.final1 (V3 m ρ) Payload.pay1_at c, V3_v39 m ρ c, V3_v27 m ρ c, V3_v40 m ρ c, V3_v41 m ρ c,
    Layer.meanRows_eq_mean, Layer.stacked_eq_layer, first_layer m ρ c]
  unfold Cert.Sage.out
  rfl

/-- The run, read: the result at the specification of the launch arrays, the arguments unchanged. -/
theorem run : θ_run defs (onTc (τ := τ) (main (F := Ideal))) ⟨m, fun _ => 0, ρ⟩ (fun r => ∀ c : Dev nD,
      r.2.mem ((c.tc : Thread nD τ).loc main_v42)
        = Cert.Sage.out (agg (m ((c : Thread nD τ).loc main_arg1))) (deg (m ((c : Thread nD τ).loc main_arg1)))
            (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result m ρ c), (h c).2⟩) (RunValue.run (F := Ideal) m ρ)

end Cert.KernelIdeal.Final

end
-- ==== Proof.RefSage.lean ====
/-
  The reference program's result is the specification: two mean-aggregating graph-convolution layers.

  The reference computes, stage by stage, the neighbour sum (a gather of the source rows followed by a
  scatter-add at the destinations), the in-degree (a scatter-add of ones), the mean (the sum over
  max(degree, 1)), and then one layer: mean · wl + b + own · wr, clipped below at 0 after the first layer.
  The second layer repeats the index and degree stages from the same edge list, so they are the first layer's.
  Read one element at a time, each stage is the corresponding piece of the specification; the gather and the
  scatter-add are never opened: they enter only through `agg` and the degree array.
-/
import proofs.«173697_j32323923870319_2_alg».proof.Proof.Gen.ReferenceIdeal.Read
import proofs.«173697_j32323923870319_2_alg».proof.Proof.SageSpec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The neighbour sum as the reference spells it: gather the source rows of `a`, scatter-add them at the destinations. -/
def agg (x1 : (⟨S2x1250000, .i32⟩ : BufTy).Contents (Elt Ideal)) (a : (⟨S100000x64, .f32⟩ : BufTy).Contents (Elt Ideal)) :
    (⟨S100000x64, .f32⟩ : BufTy).Contents (Elt Ideal) :=
  Host.scatterAdd (F := Ideal) (φ := .f32) scatter_S100000x64_S1250000x1_S1250000x64_1_0_0_1 (val_main_v11 (F := Ideal)) (val_main_v12 (F := Ideal) x1)
    (Host.gather gather_S100000x64_S1250000x1_S1250000x64_1_0_n_n_0_1_164 a (val_main_v9 (F := Ideal) x1))

/-- The first layer's neighbour sum is `agg` of the input features. -/
theorem v13_eq (x0 : (⟨S100000x64, .f32⟩ : BufTy).Contents (Elt Ideal)) (x1 : (⟨S2x1250000, .i32⟩ : BufTy).Contents (Elt Ideal)) :
    val_main_v13 (F := Ideal) x0 x1 = agg x1 x0 := rfl

/-- The divisor array at node `p`, any feature: the larger of the degree and 1. -/
theorem v21_at (x1 : (⟨S2x1250000, .i32⟩ : BufTy).Contents (Elt Ideal)) (p : Fin 100000) (q : Fin 64) :
    val_main_v21 (F := Ideal) x1 (ix2 p q) = max (val_main_v17 (F := Ideal) x1 (ix1 p)) 1 := by
  have h : idx_main_v20 (idx_main_v21 (ix2 p q)) = ix1 p :=
    funext fun a => Fin.ext (by match a with | ⟨0, _⟩ => rfl)
  rw [val_main_v21_apply, val_main_v20_apply, val_main_v19_apply, val_main_v18_apply, val_main_cst_3_apply,
    Ideal.maximumf_def, Ideal.ofBits_def, Ideal.ofBits_one_f32, h]

/-- The first layer's mean is the specification's mean of the neighbour sum. -/
theorem v22_eq (x0 : (⟨S100000x64, .f32⟩ : BufTy).Contents (Elt Ideal)) (x1 : (⟨S2x1250000, .i32⟩ : BufTy).Contents (Elt Ideal)) :
    val_main_v22 (F := Ideal) x0 x1 = Cert.Sage.mean (agg x1 x0) (val_main_v17 (F := Ideal) x1) := by
  funext i
  obtain ⟨p, q, rfl⟩ : ∃ (p : Fin 100000) (q : Fin 64), i = ix2 p q := ⟨i 0, i 1, eq_ix2 i⟩
  rw [val_main_v22_apply, v21_at, v13_eq, Ideal.hostDivf_def]
  rfl

/-- The first layer: the reference's stages from the mean to the clip are the specification's layer, clipped.
    At the element (p, q) the two products are the sums over k of mean(p, k) · wl(k, q) and x(p, k) · wr(k, q), the
    broadcast bias is b(q), and the clip is the maximum with the constant 0. -/
theorem v29_eq (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v29 (F := Ideal) x0 x1 x2 x3 x4
      = Cert.Sage.layer true (val_main_v22 (F := Ideal) x0 x1) x0 x2 x4 x3 := by
  funext i
  obtain ⟨p, q, rfl⟩ : ∃ (p : Fin 100000) (q : Fin 64), i = ix2 p q := ⟨i 0, i 1, eq_ix2 i⟩
  have hb : idx_main_v24 (idx_main_v25 (ix2 p q)) = ix1 q :=
    funext fun a => Fin.ext (by match a with | ⟨0, _⟩ => rfl)
  have hl : ∀ k : Fin 64, lidx_main_v23 (ix2 p q) k = ix2 p k := fun k =>
    funext fun a => Fin.ext (by match a with | ⟨0, _⟩ => rfl | ⟨1, _⟩ => rfl)
  have hr : ∀ k : Fin 64, ridx_main_v23 (ix2 p q) k = ix2 k q := fun k =>
    funext fun a => Fin.ext (by match a with | ⟨0, _⟩ => rfl | ⟨1, _⟩ => rfl)
  have hl' : ∀ k : Fin 64, lidx_main_v27 (ix2 p q) k = ix2 p k := fun k =>
    funext fun a => Fin.ext (by match a with | ⟨0, _⟩ => rfl | ⟨1, _⟩ => rfl)
  have hr' : ∀ k : Fin 64, ridx_main_v27 (ix2 p q) k = ix2 k q := fun k =>
    funext fun a => Fin.ext (by match a with | ⟨0, _⟩ => rfl | ⟨1, _⟩ => rfl)
  rw [val_main_v29_apply, val_main_v28_apply, val_main_v26_apply, val_main_v23_apply, val_main_v25_apply, val_main_v24_apply,
    val_main_v27_apply, val_main_call0_v0_apply, val_main_call0_cst_apply]
  generalize val_main_v22 (F := Ideal) x0 x1 = mn
  simp only [Ideal.ofBits_def, Ideal.ofBits_zero_f32, Ideal.maximumf_def, Ideal.addf_def, hb, hl, hr, hl', hr']
  show _ = Cert.Sage.layerAt true mn x0 x2 x4 x3 p q
  unfold Cert.Sage.layerAt
  rw [if_pos rfl]

/-! The second layer recomputes the edge list's source and destination columns, the zero array and the degree from the
    same input: each is, term for term, the first layer's. -/

theorem v39_eq (x1 : (⟨S2x1250000, .i32⟩ : BufTy).Contents (Elt Ideal)) :
    val_main_v39 (F := Ideal) x1 = val_main_v9 (F := Ideal) x1 := rfl

theorem v41_eq : val_main_v41 (F := Ideal) = val_main_v11 (F := Ideal) := rfl

theorem v42_eq (x1 : (⟨S2x1250000, .i32⟩ : BufTy).Contents (Elt Ideal)) :
    val_main_v42 (F := Ideal) x1 = val_main_v12 (F := Ideal) x1 := rfl

theorem v47_eq (x1 : (⟨S2x1250000, .i32⟩ : BufTy).Contents (Elt Ideal)) :
    val_main_v47 (F := Ideal) x1 = val_main_v17 (F := Ideal) x1 := rfl

theorem v51_eq (x1 : (⟨S2x1250000, .i32⟩ : BufTy).Contents (Elt Ideal)) :
    val_main_v51 (F := Ideal) x1 = val_main_v21 (F := Ideal) x1 := rfl

/-- The second layer's neighbour sum is `agg` of the first layer's output. -/
theorem v43_eq (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v43 (F := Ideal) x0 x1 x2 x3 x4 = agg x1 (val_main_v29 (F := Ideal) x0 x1 x2 x3 x4) := by
  unfold val_main_v43 val_main_v40 agg
  rw [v41_eq, v42_eq, v39_eq]

/-- The second layer's mean is the specification's mean of that neighbour sum, over the same degree. -/
theorem v52_eq (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v52 (F := Ideal) x0 x1 x2 x3 x4
      = Cert.Sage.mean (agg x1 (val_main_v29 (F := Ideal) x0 x1 x2 x3 x4)) (val_main_v17 (F := Ideal) x1) := by
  funext i
  obtain ⟨p, q, rfl⟩ : ∃ (p : Fin 100000) (q : Fin 64), i = ix2 p q := ⟨i 0, i 1, eq_ix2 i⟩
  rw [val_main_v52_apply, v51_eq, v21_at, v43_eq, Ideal.hostDivf_def]
  rfl

/-- The second layer: the same stages without the clip, reading the first layer's output as the nodes' own features. -/
theorem v58_eq (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v58 (F := Ideal) x0 x1 x2 x3 x4 x5 x6 x7
      = Cert.Sage.layer false (val_main_v52 (F := Ideal) x0 x1 x2 x3 x4) (val_main_v29 (F := Ideal) x0 x1 x2 x3 x4) x5 x7 x6 := by
  funext i
  obtain ⟨p, q, rfl⟩ : ∃ (p : Fin 100000) (q : Fin 64), i = ix2 p q := ⟨i 0, i 1, eq_ix2 i⟩
  have hb : idx_main_v54 (idx_main_v55 (ix2 p q)) = ix1 q :=
    funext fun a => Fin.ext (by match a with | ⟨0, _⟩ => rfl)
  have hl : ∀ k : Fin 64, lidx_main_v53 (ix2 p q) k = ix2 p k := fun k =>
    funext fun a => Fin.ext (by match a with | ⟨0, _⟩ => rfl | ⟨1, _⟩ => rfl)
  have hr : ∀ k : Fin 64, ridx_main_v53 (ix2 p q) k = ix2 k q := fun k =>
    funext fun a => Fin.ext (by match a with | ⟨0, _⟩ => rfl | ⟨1, _⟩ => rfl)
  have hl' : ∀ k : Fin 64, lidx_main_v57 (ix2 p q) k = ix2 p k := fun k =>
    funext fun a => Fin.ext (by match a with | ⟨0, _⟩ => rfl | ⟨1, _⟩ => rfl)
  have hr' : ∀ k : Fin 64, ridx_main_v57 (ix2 p q) k = ix2 k q := fun k =>
    funext fun a => Fin.ext (by match a with | ⟨0, _⟩ => rfl | ⟨1, _⟩ => rfl)
  rw [val_main_v58_apply, val_main_v56_apply, val_main_v53_apply, val_main_v55_apply, val_main_v54_apply,
    val_main_v57_apply]
  generalize val_main_v52 (F := Ideal) x0 x1 x2 x3 x4 = mn
  generalize val_main_v29 (F := Ideal) x0 x1 x2 x3 x4 = a
  simp only [Ideal.addf_def, hb, hl, hr, hl', hr']
  show _ = Cert.Sage.layerAt false mn a x5 x7 x6 p q
  unfold Cert.Sage.layerAt
  rw [if_neg Bool.false_ne_true]

/-- The reference program's result is the specification's two layers, with the reference's own gather and scatter-add
    as the neighbour sum and its scatter-add of ones as the degree. -/
theorem out_eq (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v58 (F := Ideal) x0 x1 x2 x3 x4 x5 x6 x7
      = Cert.Sage.out (agg x1) (val_main_v17 (F := Ideal) x1) x0 x2 x3 x4 x5 x6 x7 := by
  unfold Cert.Sage.out
  rw [v58_eq, v52_eq, v29_eq, v22_eq]

end Cert.ReferenceIdeal.RefValue

end
-- ==== Proof.lean ====
/-
  The kernel — a two-layer mean-aggregating graph convolution whose dense per-node stage runs as two pipelined calls —
  against its plain reference, on the extended reals.

  Both programs gather the neighbours' feature rows and add them up at the destinations with the same host operations,
  and count the in-degrees the same way. They differ in three arrangements, none of which changes an extended real:
    · the kernel multiplies the neighbour sum by 1 / max(degree, 1), the reference divides it by max(degree, 1) — the
      divisor is at least 1, hence not 0, and off 0 the quotient is the product with the inverse, for every extended
      real numerator and degree (`Cert.Sage.mul_recip_max`);
    · the kernel lays the mean row and the node's own row side by side and multiplies by the two weight matrices
      stacked, the reference multiplies each by its own matrix and adds — a sum over 128 terms split into its halves;
    · the kernel adds the bias after both products, the reference between them — commutativity and associativity.
  None of these needs a finite input, so the precondition is never opened.

  The frames of the two kernel programs are the generated ones; the reference's frame is its generated run with the
  result dropped; the idealization rewrote nothing, so `preserves` is `True`. For `algebraic` both runs end at
  `Cert.Sage.out` of the argument arrays: the kernel's by reading its run boundary by boundary (Proof/KernelValue.lean),
  the reference's by reading its operations index by index (Proof/RefSage.lean); the two spellings of the shared
  neighbour sum and degree count are one term.
-/
import proofs.«173697_j32323923870319_2_alg».proof.Defs
import proofs.«173697_j32323923870319_2_alg».proof.Proof.Gen.Kernel
import proofs.«173697_j32323923870319_2_alg».proof.Proof.Gen.Kernel.Frame
import proofs.«173697_j32323923870319_2_alg».proof.Proof.Gen.KernelIdeal
import proofs.«173697_j32323923870319_2_alg».proof.Proof.Gen.KernelIdeal.Frame
import proofs.«173697_j32323923870319_2_alg».proof.Proof.Gen.ReferenceIdeal
import proofs.«173697_j32323923870319_2_alg».proof.Proof.Gen.Pre_finite_inputs
import proofs.«173697_j32323923870319_2_alg».proof.Proof.Gen.ReferenceIdeal.Run
import proofs.«173697_j32323923870319_2_alg».proof.Proof.Gen.ReferenceIdeal.Read
import proofs.«173697_j32323923870319_2_alg».proof.Proof.KernelValue
import proofs.«173697_j32323923870319_2_alg».proof.Proof.RefSage
import Idealize.ShloMosaic.Adequacy
import Idealize.ShloMosaic.Init

noncomputable section

namespace Cert.Proof

open Idealize.ShloMosaic Idealize.ShloMosaic.TcCoe Idealize.SL.Sem

/-- The neighbour sum is one term in the two programs. -/
theorem agg_eq (e : (⟨Cert.KernelIdeal.S2x1250000, .i32⟩ : BufTy).Contents (Elt Ideal)) :
    Cert.ReferenceIdeal.RefValue.agg e = Cert.KernelIdeal.Final.agg e := by
  funext a
  unfold Cert.ReferenceIdeal.RefValue.agg Cert.KernelIdeal.Final.agg Cert.KernelIdeal.HostRead.nbrSum
    Cert.KernelIdeal.HostRead.src Cert.KernelIdeal.HostRead.dst
    Cert.ReferenceIdeal.Read.val_main_v11 Cert.ReferenceIdeal.Read.val_main_cst Cert.ReferenceIdeal.Read.val_main_v12
    Cert.ReferenceIdeal.Read.val_main_v3 Cert.ReferenceIdeal.Read.val_main_v2 Cert.ReferenceIdeal.Read.val_main_v9
    Cert.ReferenceIdeal.Read.val_main_v8 Cert.ReferenceIdeal.Read.val_main_v7 Cert.ReferenceIdeal.Read.val_main_v6
    Cert.ReferenceIdeal.Read.val_main_c_0 Cert.ReferenceIdeal.Read.val_main_v5 Cert.ReferenceIdeal.Read.val_main_v4
    Cert.ReferenceIdeal.Read.val_main_c Cert.ReferenceIdeal.Read.val_main_v1 Cert.ReferenceIdeal.Read.val_main_v0
  rfl

/-- The degree count is one term in the two programs. -/
theorem deg_eq (e : (⟨Cert.KernelIdeal.S2x1250000, .i32⟩ : BufTy).Contents (Elt Ideal)) :
    Cert.ReferenceIdeal.Read.val_main_v17 (F := Ideal) e = Cert.KernelIdeal.Final.deg e := by
  unfold Cert.ReferenceIdeal.Read.val_main_v17 Cert.KernelIdeal.Final.deg Cert.KernelIdeal.HostRead.degree
    Cert.KernelIdeal.HostRead.dst
    Cert.ReferenceIdeal.Read.val_main_v15 Cert.ReferenceIdeal.Read.val_main_cst_2 Cert.ReferenceIdeal.Read.val_main_v16
    Cert.ReferenceIdeal.Read.val_main_v3 Cert.ReferenceIdeal.Read.val_main_v2 Cert.ReferenceIdeal.Read.val_main_v14
    Cert.ReferenceIdeal.Read.val_main_cst_1
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at the specification's two layers of the (agreeing) argument arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.out_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2, agg_eq, deg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
